-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S2000x128 : Shape := ⟨2, ![2000, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩

abbrev nBuf : Space → Nat
  | .hbm => 27
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S100000x128, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S1x128, .f32⟩
  | .hbm, ⟨25, _⟩ => ⟨S1x128, .f32⟩
  | .hbm, ⟨26, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S1x128, .f32⟩
  | .local _ .vmem, ⟨10, _⟩ => ⟨S1x128, .f32⟩
  | .local _ .vmem, ⟨11, _⟩ => ⟨S2000x128, .f32⟩
  | .local _ .vmem, ⟨12, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S100000x128, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S1x128, .f32⟩
  | .hbm, ⟨25, _⟩ => ⟨S100000x128, .f32⟩
  | .hbm, ⟨26, _⟩ => ⟨S100000x128, .f32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | .hbm, ⟨31, _⟩ => ⟨S_, .f32⟩
  | .hbm, ⟨32, _⟩ => ⟨S_, .f32⟩
  | .hbm, ⟨33, _⟩ => ⟨S100000x128, .f32⟩
  | .hbm, ⟨34, _⟩ => ⟨S100000x128, .i1⟩
  | .hbm, ⟨35, _⟩ => ⟨S_, .f32⟩
  | .hbm, ⟨36, _⟩ => ⟨S100000x128, .f32⟩
  | .hbm, ⟨37, _⟩ => ⟨S100000x128, .i1⟩
  | .hbm, ⟨38, _⟩ => ⟨S_, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_call0_cst : Ref sig .tc := ⟨.hbm, 32, rfl⟩
abbrev main_call0_call0_v0 : Ref sig .tc := ⟨.hbm, 33, rfl⟩
abbrev main_call0_call0_v1 : Ref sig .tc := ⟨.hbm, 34, rfl⟩
abbrev main_call0_call0_cst_0 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_cst_1 : Ref sig .tc := ⟨.hbm, 38, rfl⟩
abbrev main_call0_call0_call0_v0 : Ref sig .tc := ⟨.hbm, 39, rfl⟩
abbrev main_call0_call0_call0_v1 : Ref sig .tc := ⟨.hbm, 40, rfl⟩
abbrev main_call0_call0_v4 : Ref sig .tc := ⟨.hbm, 41, rfl⟩
abbrev main_call0_call0_v5 : Ref sig .tc := ⟨.hbm, 42, rfl⟩
abbrev main_call0_call0_v6 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_v0 : Ref sig .tc := ⟨.hbm, 46, rfl⟩
abbrev main_call0_cst_0 : Ref sig .tc := ⟨.hbm, 47, rfl⟩
abbrev main_call0_v1 : Ref sig .tc := ⟨.hbm, 48, rfl⟩
abbrev main_v21 : Ref sig .tc := ⟨.hbm, 49, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
/-
  The idealized kernel's run with its RESULT kept. The program is two kernel regions with a stretch of host
  operations between them; the buffer contents at the four boundaries are a fold from the launch memory
  (the generated `W0 … W3`). Every weakly fair execution terminates with EVERY unscoped buffer at the last
  boundary's contents `W3`; read at the result buffer this is the second region's output array after its
  fifty write-backs, and read at an argument it is the launch contents.
-/
import proofs.«150054_j34832184771167_1_alg».proof.Proof.Gen.KernelIdeal.Frame

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting,
    with the result buffer at the last boundary's contents and the seven argument arrays as launched. -/
theorem run_value : θ_run defs (onTc (τ := τ) (main (F := F))) ⟨m, fun _ => 0, ρ⟩ (fun r => ∀ c : Dev nD,
      r.2.mem ((c.tc : Thread nD τ).loc main_v16) = W3 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v16 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

/-- The result buffer is the second region's output window's array; at the last boundary it holds that array after
    every grid point's write-back. -/
theorem W3_result (c : Dev nD) :
    W3 m ρ c (Proc.devRef .tc main_v16) = (dat1 (V2 m ρ) c).arrAt 4 cfg1.N :=
  W3_arr m ρ c 4

end Cert.KernelIdeal.KRun

end
-- ==== Proof.LibPlainDot.lean ====
/-
  A plain matrix product of the matrix unit read at an element.

  A `tpu.matmul` into the zero accumulator with the dimension numbers `[1] x [0]` of an `[M, K]` by `[K, N]` product
  holds at the element `(a, b)` the sum over `c` of the left operand's `(a, c)` times the right operand's `(c, b)`:
  the sum over the contraction shape's one axis, re-indexed by `Fin K`. (The host's `dot_general` with the same
  dimension numbers is that same sum.)
-/
import Idealize.ShloMosaic.Lib.ValueIdx
import Idealize.ShloMosaic.PureOps.Ideal.Laws

noncomputable section

open scoped BigOperators

namespace Cert.Lib.PlainDot

open Idealize.ShloMosaic Idealize.ShloMosaic.ValueIdx

/-- The contraction sum of a plain `[M, K] x [K, N]` product at `(a, b)` is `∑ c, A (a, c) * B (c, b)`. -/
theorem sum_eq {M K N : Nat} (A : (⟨2, ![M, K]⟩ : Shape).Idx → EReal) (B : (⟨2, ![K, N]⟩ : Shape).Idx → EReal)
    (a : Fin M) (b : Fin N) :
    ∑ c : (DotDims.plain M K N).contr.Idx,
        A ((DotDims.plain M K N).lhsIdx (ix2 a b) c) * B ((DotDims.plain M K N).rhsIdx (ix2 a b) c)
      = ∑ c : Fin K, A (ix2 a c) * B (ix2 c b) := by
  rw [← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- The matrix unit's plain product into the zero accumulator, at `(a, b)`. -/
theorem matmul_zero_apply {M K N : Nat} {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant ⟨2, ![M, N]⟩ .f32 0x00000000#32) (ix2 a b)
      = ∑ c : Fin K, A (ix2 a c) * B (ix2 c b) := by
  rw [Ideal.matmul_constant_zero_apply]
  exact sum_eq A B a b

end Cert.Lib.PlainDot

end
-- ==== Proof.Matmul.lean ====
/-
  The first region: the dense product, block of rows by block of rows.

  The grid has 50 points; point `t` stages rows `2000 t … 2000 t + 1999` of the left matrix (all 128 columns), the
  whole 128 x 128 right matrix, and writes back rows `2000 t … 2000 t + 1999` of the result. Its body multiplies the
  two staged blocks on the matrix unit into the zero accumulator, so entry `(p, q)` of the block is
  `∑ c, left (2000 t + p, c) * right (c, q)`: entry `(2000 t + p, q)` of the whole product. The 50 row blocks tile the
  result, the block holding row `r` being that of point `r / 2000`; so after the region the result array IS the
  product of the two arrays the region found, entry by entry.
-/
import proofs.«150054_j34832184771167_1_alg».proof.Proof.Gen.KernelIdeal.Frame
import proofs.«150054_j34832184771167_1_alg».proof.Proof.LibPlainDot
import Idealize.ShloMosaic.Lib.Pipeline.Value
import Idealize.ShloMosaic.Lib.ValueIdx

noncomputable section

open scoped BigOperators

namespace Cert.KernelIdeal.Product

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- Entry `(a, b)` of the product of a 100000 x 128 array by a 128 x 128 array. -/
def entry (A : S100000x128.Idx → Elt Ideal .f32) (B : S128x128.Idx → Elt Ideal .f32) (a : Fin 100000) (b : Fin 128) : Elt Ideal .f32 :=
  ∑ c : Fin 128, A (ix2 a c) * B (ix2 c b)

/-- The product as an array. -/
def prod (A : S100000x128.Idx → Elt Ideal .f32) (B : S128x128.Idx → Elt Ideal .f32) : S100000x128.Idx → Elt Ideal .f32 :=
  fun i => entry A B (i 0) (i 1)

/-- The body's stored value at entry `(p, q)` of the block: the row of the left block against the column of the right
    one (the change of format on the way into the matrix unit is the identity on extended reals). -/
theorem pay_at (x0 : Vec Ideal S2000x128 .f32) (x1 : Vec Ideal S128x128 .f32) (p : Fin 2000) (q : Fin 128) :
    k0_pay1 x0 x1 (ix2 p q) = ∑ c : Fin 128, x0 (ix2 p c) * x1 (ix2 c q) := by
  unfold k0_pay1
  exact Cert.Lib.PlainDot.matmul_zero_apply none x0 x1 p q

/-- The three index maps over the grid: the left block and the result block are row block `t`, column block 0; the
    right matrix is always block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the region finds them. -/
theorem flushed_eq (c : Dev nD) (t : Fin cfg0.N) :
    (dat0 V c).flushed 2 t = ((cfg0.win 2).blk t).view.read (Elt Ideal) (prod (V c main_arg0) (V c main_arg4)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨e0, e1, e2, e3, e4, e5⟩ := idx_facts t
  funext j
  obtain ⟨p, q, rfl⟩ : ∃ (p : Fin 2000) (q : Fin 128), j = ix2 p q := ⟨j 0, j 1, eq_ix2 j⟩
  show k0_pay1 (iblk0 V c 0 t) (iblk0 V c 1 t) (ix2 p q) = prod (V c main_arg0) (V c main_arg4) (((cfg0.win 2).blk t).view.emb (ix2 p q))
  rw [pay_at]
  unfold prod entry
  refine Finset.sum_congr rfl fun k _ => ?_
  have hp : p.val < 2000 := p.isLt
  have hq : q.val < 128 := q.isLt
  have hk : k.val < 128 := k.isLt
  have hl : iblk0 V c 0 t (ix2 p k) = V c main_arg0 (ix2 ((((cfg0.win 2).blk t).view.emb (ix2 p q)) 0) k) := by
    show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  have hr : iblk0 V c 1 t (ix2 k q) = V c main_arg4 (ix2 k ((((cfg0.win 2).blk t).view.emb (ix2 p q)) 1)) := by
    show V c main_arg4 (((cfg0.win 1).blk t).view.emb (ix2 k q)) = _
    refine congrArg (V c main_arg4) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [hl, hr]

/-- An index of the result array is in point `t`'s block iff each coordinate is in the block's range on its axis. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- Every index of the result array is in the block of the point that holds its row: point `row / 2000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  refine ⟨⟨(i 0).val / 2000, by rw [hN]; omega⟩, flush0_2 _, ?_⟩
  rw [mem_blk]
  obtain ⟨-, -, -, -, e4, e5⟩ := idx_facts ⟨(i 0).val / 2000, by rw [hN]; omega⟩
  intro a
  match a with
  | ⟨0, _⟩ =>
    show win0_2.index _ (0 : Fin 2) * 2000 ≤ (i 0).val ∧ (i 0).val < win0_2.index _ (0 : Fin 2) * 2000 + 2000
    rw [e4]; show (i 0).val / 2000 * 2000 ≤ (i 0).val ∧ (i 0).val < (i 0).val / 2000 * 2000 + 2000; omega
  | ⟨1, _⟩ =>
    show win0_2.index _ (1 : Fin 2) * 128 ≤ (i 1).val ∧ (i 1).val < win0_2.index _ (1 : Fin 2) * 128 + 128
    rw [e5]; omega

/-- After the region the result array is the product of the two arrays the region found. -/
theorem final (c : Dev nD) : (dat0 V c).arrAt 2 cfg0.N = prod (V c main_arg0) (V c main_arg4) :=
  (dat0 V c).arrAt_eq_of_cover 2 (prod (V c main_arg0) (V c main_arg4)) (fun t _ => flushed_eq V c t) cover

end Cert.KernelIdeal.Product

end
-- ==== Proof.Selu.lean ====
/-
  The scaled exponential linear unit on the extended reals, and the two spellings of it that meet here.

  With `s` and `al` the two constants (the same two words on both sides, never evaluated) the function is
      selu x = s * (if x > 0 then x else al * (exp x - 1)).
  One spelling subtracts the word of `1.0` from `exp x`; the other applies `expm1`, which on the extended reals is
  `exp x - 1` by definition, to `if x > 0 then 0 else x` — under the outer test's `else` branch that inner value is
  `x` itself, and under its `then` branch the inner value is not read. So both are `selu x` at every extended real,
  the infinities included: no finiteness is used.
-/
import Idealize.ShloMosaic.Lib.ValueIdx
import Idealize.ShloMosaic.PureOps.Ideal.Laws

noncomputable section

namespace Cert.Selu

open Idealize.ShloMosaic Idealize.ShloMosaic.ValueIdx

/-- The word of `1.0` is the extended real `1`. -/
theorem ofBits_one_f32 : Ideal.ofBits .f32 0x3F800000#32 = 1 := IdealRules.sign_bit.ideal_onePat .f32

/-- `selu x = s * (if x > 0 then x else al * (exp x - 1))`, the test and the constants as the programs spell them. -/
def selu (x : Ideal .f32) : Ideal .f32 :=
  FloatOps.mulf (Scalar.ofBits .f32 0x3F867D5F#32)
    (Scalar.select (FloatOps.cmpf .ogt x (Scalar.ofBits .f32 0x00000000#32)) x
      (FloatOps.mulf (Scalar.ofBits .f32 0x3FD62D7D#32) (FloatOps.hostUnary .expm1 x)))

/-- The spelling with `exp x` minus the word of `1.0`. -/
theorem exp_sub_one_form (x : Ideal .f32) :
    FloatOps.mulf (Scalar.ofBits .f32 0x3F867D5F#32)
      (Scalar.select (FloatOps.cmpf .ogt x (Scalar.ofBits .f32 0x00000000#32)) x
        (FloatOps.mulf (Scalar.ofBits .f32 0x3FD62D7D#32) (FloatOps.subf (FloatOps.exp x) (Scalar.ofBits .f32 0x3F800000#32))))
      = selu x := by
  unfold selu
  have h1 : FloatOps.subf (FloatOps.exp x) (Scalar.ofBits (F := Ideal) .f32 0x3F800000#32) = FloatOps.hostUnary .expm1 x := by
    show Ideal.exp x - Ideal.ofBits .f32 0x3F800000#32 = Ideal.exp x - 1
    rw [ofBits_one_f32]
  rw [h1]

/-- The spelling with `expm1` of `if x > 0 then 0 else x`, the zero any word `z`. -/
theorem expm1_guarded_form (x : Ideal .f32) (z : Ideal .f32) :
    FloatOps.mulf (Scalar.ofBits .f32 0x3F867D5F#32)
      (Scalar.select (FloatOps.cmpf .ogt x (Scalar.ofBits .f32 0x00000000#32)) x
        (FloatOps.mulf (Scalar.ofBits .f32 0x3FD62D7D#32)
          (FloatOps.hostUnary .expm1 (Scalar.select (FloatOps.cmpf .ogt x (Scalar.ofBits .f32 0x00000000#32)) z x))))
      = selu x := by
  unfold selu
  rcases BitVec.eq_zero_or_eq_one (FloatOps.cmpf .ogt x (Scalar.ofBits (F := Ideal) .f32 0x00000000#32)) with h | h
  · rw [h, select_zero, select_zero, select_zero]
  · rw [h, select_one, select_one]

end Cert.Selu

end
-- ==== Proof.Epilogue.lean ====
/-
  The second region: the pointwise epilogue, block of rows by block of rows.

  The grid has 50 points; point `t` stages rows `2000 t … 2000 t + 1999` of the projected features `H` and of the
  aggregated neighbours `Ah`, the one row of the skip scale and the one row of the bias, and writes back the same rows
  of the result. At entry `(p, q)` of the block its body computes
      selu (H (2000 t + p, q) * skip (0, q) + Ah (2000 t + p, q) + bias (0, q)),
  the two one-row operands broadcast over the rows. The 50 row blocks tile the result, the block holding row `r`
  being that of point `r / 2000`; so after the region the result array is that expression of the four arrays the
  region found, entry by entry.
-/
import proofs.«150054_j34832184771167_1_alg».proof.Proof.Gen.KernelIdeal.Frame
import proofs.«150054_j34832184771167_1_alg».proof.Proof.Selu
import Idealize.ShloMosaic.Lib.Pipeline.Value
import Idealize.ShloMosaic.Lib.ValueIdx
import Idealize.ShloMosaic.Lib.ValueLayout

noncomputable section

namespace Cert.KernelIdeal.Epilogue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The activation of the scaled features plus the aggregated neighbours plus the bias, at entry `(a, b)`. -/
def entry (H Ah : S100000x128.Idx → Elt Ideal .f32) (sk bi : S1x128.Idx → Elt Ideal .f32) (a : Fin 100000) (b : Fin 128) : Elt Ideal .f32 :=
  Cert.Selu.selu (H (ix2 a b) * sk (ix2 (0 : Fin 1) b) + Ah (ix2 a b) + bi (ix2 (0 : Fin 1) b))

/-- The same as an array. -/
def act (H Ah : S100000x128.Idx → Elt Ideal .f32) (sk bi : S1x128.Idx → Elt Ideal .f32) : S100000x128.Idx → Elt Ideal .f32 :=
  fun i => entry H Ah sk bi (i 0) (i 1)

/-- The body's stored value at entry `(p, q)` of the block: the one-row operands read at column `q`, the rest
    pointwise; the subtraction of the word of `1.0` from the exponential is `expm1`. -/
theorem pay_at (x0 x1 : Vec Ideal S2000x128 .f32) (x2 x3 : Vec Ideal S1x128 .f32) (p : Fin 2000) (q : Fin 128) :
    k1_pay1 x0 x1 x2 x3 (ix2 p q)
      = Cert.Selu.selu (x0 (ix2 p q) * x2 (ix2 (0 : Fin 1) q) + x1 (ix2 p q) + x3 (ix2 (0 : Fin 1) q)) := by
  have h7 : broadcastTo S2000x128 x2 broadcasts_S1x128_S2000x128 (ix2 p q) = x2 (ix2 (0 : Fin 1) q) :=
    broadcastTo_1b_ab_apply x2 broadcasts_S1x128_S2000x128 p q
  have h11 : broadcastTo S2000x128 x3 broadcasts_S1x128_S2000x128 (ix2 p q) = x3 (ix2 (0 : Fin 1) q) :=
    broadcastTo_1b_ab_apply x3 broadcasts_S1x128_S2000x128 p q
  rw [← Cert.Selu.exp_sub_one_form, ← h7, ← h11]
  unfold k1_pay1
  simp only [shapeCast_self]
  rfl

/-- The five index maps over the grid: the two full operands and the result are row block `t`, column block 0; the
    two one-row operands are always block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the activation of the four arrays as the region finds them. -/
theorem flushed_eq (c : Dev nD) (t : Fin cfg1.N) :
    (dat1 V c).flushed 4 t = ((cfg1.win 4).blk t).view.read (Elt Ideal)
      (act (V c main_v0) (V c main_v13) (V c main_v14) (V c main_v15)) := by
  show (cfg1.win 4).cut (grid1.coords t) ((dat1 V c).after 4 t) = _
  rw [after1_4]
  unfold out1_4
  rw [View.canon_unit_zero hz]
  simp only [View.ld_unit_zero (S := S2000x128) hz, View.ld_unit_zero (S := S1x128) hz]
  obtain ⟨e0, e1, e2, e3, e4, e5, e6, e7, e8, e9⟩ := idx_facts t
  funext j
  obtain ⟨p, q, rfl⟩ : ∃ (p : Fin 2000) (q : Fin 128), j = ix2 p q := ⟨j 0, j 1, eq_ix2 j⟩
  show k1_pay1 (iblk1 V c 0 t) (iblk1 V c 1 t) (iblk1 V c 2 t) (iblk1 V c 3 t) (ix2 p q)
    = act (V c main_v0) (V c main_v13) (V c main_v14) (V c main_v15) (((cfg1.win 4).blk t).view.emb (ix2 p q))
  rw [pay_at]
  unfold act entry
  have hp : p.val < 2000 := p.isLt
  have hq : q.val < 128 := q.isLt
  have h0 : iblk1 V c 0 t (ix2 p q)
      = V c main_v0 (ix2 ((((cfg1.win 4).blk t).view.emb (ix2 p q)) 0) ((((cfg1.win 4).blk t).view.emb (ix2 p q)) 1)) := by
    show V c main_v0 (((cfg1.win 0).blk t).view.emb (ix2 p q)) = _
    refine congrArg (V c main_v0) (funext fun a => Fin.ext ?_)
    match a with
    | ⟨0, _⟩ => show win1_0.index t (0 : Fin 2) * 2000 + 1 * p.val = win1_4.index t (0 : Fin 2) * 2000 + 1 * p.val; omega
    | ⟨1, _⟩ => show win1_0.index t (1 : Fin 2) * 128 + 1 * q.val = win1_4.index t (1 : Fin 2) * 128 + 1 * q.val; omega
  have h1 : iblk1 V c 1 t (ix2 p q)
      = V c main_v13 (ix2 ((((cfg1.win 4).blk t).view.emb (ix2 p q)) 0) ((((cfg1.win 4).blk t).view.emb (ix2 p q)) 1)) := by
    show V c main_v13 (((cfg1.win 1).blk t).view.emb (ix2 p q)) = _
    refine congrArg (V c main_v13) (funext fun a => Fin.ext ?_)
    match a with
    | ⟨0, _⟩ => show win1_1.index t (0 : Fin 2) * 2000 + 1 * p.val = win1_4.index t (0 : Fin 2) * 2000 + 1 * p.val; omega
    | ⟨1, _⟩ => show win1_1.index t (1 : Fin 2) * 128 + 1 * q.val = win1_4.index t (1 : Fin 2) * 128 + 1 * q.val; omega
  have h2 : iblk1 V c 2 t (ix2 (0 : Fin 1) q)
      = V c main_v14 (ix2 (0 : Fin 1) ((((cfg1.win 4).blk t).view.emb (ix2 p q)) 1)) := by
    show V c main_v14 (((cfg1.win 2).blk t).view.emb (ix2 (0 : Fin 1) q)) = _
    refine congrArg (V c main_v14) (funext fun a => Fin.ext ?_)
    match a with
    | ⟨0, _⟩ => show win1_2.index t (0 : Fin 2) * 1 + 1 * 0 = 0; omega
    | ⟨1, _⟩ => show win1_2.index t (1 : Fin 2) * 128 + 1 * q.val = win1_4.index t (1 : Fin 2) * 128 + 1 * q.val; omega
  have h3 : iblk1 V c 3 t (ix2 (0 : Fin 1) q)
      = V c main_v15 (ix2 (0 : Fin 1) ((((cfg1.win 4).blk t).view.emb (ix2 p q)) 1)) := by
    show V c main_v15 (((cfg1.win 3).blk t).view.emb (ix2 (0 : Fin 1) q)) = _
    refine congrArg (V c main_v15) (funext fun a => Fin.ext ?_)
    match a with
    | ⟨0, _⟩ => show win1_3.index t (0 : Fin 2) * 1 + 1 * 0 = 0; omega
    | ⟨1, _⟩ => show win1_3.index t (1 : Fin 2) * 128 + 1 * q.val = win1_4.index t (1 : Fin 2) * 128 + 1 * q.val; omega
  rw [h0, h1, h2, h3]

/-- An index of the result array is in point `t`'s block iff each coordinate is in the block's range on its axis. -/
theorem mem_blk (t : Fin cfg1.N) (i : S100000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v16).slice (win1_4.rect t)).set ↔ _
  rw [View.set_slice_whole, Rect.mem_set_unit]
  exact Iff.rfl

/-- Every index of the result array is in the block of the point that holds its row: point `row / 2000`. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 50 := N_1
  refine ⟨⟨(i 0).val / 2000, by rw [hN]; omega⟩, flush1_4 _, ?_⟩
  rw [mem_blk]
  obtain ⟨-, -, -, -, -, -, -, -, e8, e9⟩ := idx_facts ⟨(i 0).val / 2000, by rw [hN]; omega⟩
  intro a
  match a with
  | ⟨0, _⟩ =>
    show win1_4.index _ (0 : Fin 2) * 2000 ≤ (i 0).val ∧ (i 0).val < win1_4.index _ (0 : Fin 2) * 2000 + 2000
    rw [e8]; show (i 0).val / 2000 * 2000 ≤ (i 0).val ∧ (i 0).val < (i 0).val / 2000 * 2000 + 2000; omega
  | ⟨1, _⟩ =>
    show win1_4.index _ (1 : Fin 2) * 128 ≤ (i 1).val ∧ (i 1).val < win1_4.index _ (1 : Fin 2) * 128 + 128
    rw [e9]; omega

/-- After the region the result array is the activation of the four arrays the region found. -/
theorem final (c : Dev nD) :
    (dat1 V c).arrAt 4 cfg1.N = act (V c main_v0) (V c main_v13) (V c main_v14) (V c main_v15) :=
  (dat1 V c).arrAt_eq_of_cover 4 (act (V c main_v0) (V c main_v13) (V c main_v14) (V c main_v15))
    (fun t _ => flushed_eq V c t) cover

end Cert.KernelIdeal.Epilogue

end
-- ==== Proof.Between.lean ====
/-
  Between the two regions: the sparse aggregation on the host, and what the second region finds.

  After the first region the result buffer holds the projected features `H` and every argument is as launched. The
  host then wraps a negative source index by the row count, gathers row `col e` of `H` for every edge `e`, scales it by
  the edge's weight and adds it into row `row e` of a zero array: the aggregated neighbours, one function `aggr` of
  `H` and the three edge lists (never opened here: the reference applies the same function). It also views the skip
  scale and the bias, vectors of 128 entries, as arrays of one row. So the second region finds `H` unchanged,
  `aggr H row col val`, and the two one-row views.
-/
import proofs.«150054_j34832184771167_1_alg».proof.Proof.Gen.KernelIdeal.Frame
import Idealize.ShloMosaic.Lib.StableHlo.Run

noncomputable section

namespace Cert.KernelIdeal.Between

open Cert.KernelIdeal Cert.KernelIdeal.Gen Idealize.ShloMosaic Idealize.ShloMosaic.TcCoe Idealize.SL.Sem Idealize.ShloMosaic.StableHlo
open Idealize.ShloMosaic.Pipeline (Dat)

variable {F : FTy → Type} [FloatOps F]

/-- The aggregated neighbours as a function of the projected features `h` and the edge lists: row `e` of `h` gathered
    at the source index (a negative index wrapped by the row count), scaled by the edge's weight broadcast along the
    row, and added into row `a1 e` of a zero array. -/
def aggr (h : (⟨S100000x128, .f32⟩ : BufTy).Contents (Elt F)) (a1 a2 : (⟨S1600000, .i32⟩ : BufTy).Contents (Elt F)) (a3 : (⟨S1600000, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 a1)
    (mulf
      (broadcastInDim S1600000x128 ![0, 1] bcast_S1600000x1_S1600000x128_0_1
        (broadcastInDim S1600000x1 ![0] bcast_S1600000_S1600000x1_0 a3))
      (Host.gather gather_S100000x128_S1600000x1_S1600000x128_1_0_n_n_0_1_1128 h
        (broadcastInDim S1600000x1 ![0] bcast_S1600000_S1600000x1_0
          (select (cmpi .slt a2 (broadcastInDim S1600000 ![] bcast_S_S1600000 (constantI S_ 32 0#32)))
            (addi a2 (broadcastInDim S1600000 ![] bcast_S_S1600000 (constantI S_ 32 100000#32)))
            a2))))

variable (m : (ℓ : Loc nD τ sig) → Buf (Elt F) ℓ) (ρ : Dev nD → PrngReg)

/-! ## After the first region the arguments the host reads are as launched -/

theorem exit0_arg1 (c : Dev nD) : W1 m ρ c (Proc.devRef .tc main_arg1) = m ((c : Thread nD τ).loc main_arg1) :=
  (W1_of_ne m ρ c main_arg1 (by decide)).trans rfl
theorem exit0_arg2 (c : Dev nD) : W1 m ρ c (Proc.devRef .tc main_arg2) = m ((c : Thread nD τ).loc main_arg2) :=
  (W1_of_ne m ρ c main_arg2 (by decide)).trans rfl
theorem exit0_arg3 (c : Dev nD) : W1 m ρ c (Proc.devRef .tc main_arg3) = m ((c : Thread nD τ).loc main_arg3) :=
  (W1_of_ne m ρ c main_arg3 (by decide)).trans rfl
theorem exit0_arg5 (c : Dev nD) : W1 m ρ c (Proc.devRef .tc main_arg5) = m ((c : Thread nD τ).loc main_arg5) :=
  (W1_of_ne m ρ c main_arg5 (by decide)).trans rfl
theorem exit0_arg6 (c : Dev nD) : W1 m ρ c (Proc.devRef .tc main_arg6) = m ((c : Thread nD τ).loc main_arg6) :=
  (W1_of_ne m ρ c main_arg6 (by decide)).trans rfl
/-- … and the result buffer holds the first region's output array after its fifty write-backs. -/
theorem exit0_v0 (c : Dev nD) : W1 m ρ c (Proc.devRef .tc main_v0) = (dat0 (V0 m ρ) c).arrAt 2 cfg0.N :=
  W1_arr m ρ c 2

/-! ## What the second region finds in its four input arrays -/

/-- The projected features pass through the host stretch unchanged. -/
theorem entry1_v0 (c : Dev nD) : W2 m ρ c (Proc.devRef .tc main_v0) = (dat0 (V0 m ρ) c).arrAt 2 cfg0.N := by
  show StableHlo.after hostOps1 (W1 m ρ c) (Proc.devRef .tc main_v0) = _
  after_results
  exact exit0_v0 m ρ c

/-- The aggregated neighbours: `aggr` of the projected features and the launched edge lists. -/
theorem entry1_v13 (c : Dev nD) :
    W2 m ρ c (Proc.devRef .tc main_v13)
      = aggr ((dat0 (V0 m ρ) c).arrAt 2 cfg0.N) (m ((c : Thread nD τ).loc main_arg1)) (m ((c : Thread nD τ).loc main_arg2))
          (m ((c : Thread nD τ).loc main_arg3)) := by
  show StableHlo.after hostOps1 (W1 m ρ c) (Proc.devRef .tc main_v13) = _
  after_results
  rw [exit0_arg1, exit0_arg2, exit0_arg3, exit0_v0]
  rfl

/-- The skip scale viewed as one row. -/
theorem entry1_v14 (c : Dev nD) :
    W2 m ρ c (Proc.devRef .tc main_v14) = shapeCast S1x128 (m ((c : Thread nD τ).loc main_arg6)) shapeCasts_S128_S1x128 := by
  show StableHlo.after hostOps1 (W1 m ρ c) (Proc.devRef .tc main_v14) = _
  after_results
  rw [exit0_arg6]
  rfl

/-- The bias viewed as one row. -/
theorem entry1_v15 (c : Dev nD) :
    W2 m ρ c (Proc.devRef .tc main_v15) = shapeCast S1x128 (m ((c : Thread nD τ).loc main_arg5)) shapeCasts_S128_S1x128 := by
  show StableHlo.after hostOps1 (W1 m ρ c) (Proc.devRef .tc main_v15) = _
  after_results
  rw [exit0_arg5]
  rfl

end Cert.KernelIdeal.Between

end
-- ==== Proof.KernelOut.lean ====
/-
  The kernel's result as ONE function of the seven argument arrays:
      out (r, j) = selu (H (r, j) * skip j + (aggr H row col val) (r, j) + bias j),   H = features · weight,
  the product entry by entry, the aggregation the host's (one function of `H` and the edge lists), the skip scale and
  the bias viewed as one row each.
-/
import proofs.«150054_j34832184771167_1_alg».proof.Proof.Matmul
import proofs.«150054_j34832184771167_1_alg».proof.Proof.Epilogue
import proofs.«150054_j34832184771167_1_alg».proof.Proof.Between

noncomputable section

namespace Cert.KernelIdeal.Result

open Cert.KernelIdeal Cert.KernelIdeal.Gen Idealize.ShloMosaic

/-- What the program leaves in its result buffer, as a function of the arguments' contents. -/
def kerOut (a0 : (⟨S100000x128, .f32⟩ : BufTy).Contents (Elt Ideal)) (a1 a2 : (⟨S1600000, .i32⟩ : BufTy).Contents (Elt Ideal)) (a3 : (⟨S1600000, .f32⟩ : BufTy).Contents (Elt Ideal))
    (a4 : (⟨S128x128, .f32⟩ : BufTy).Contents (Elt Ideal)) (a5 a6 : (⟨S128, .f32⟩ : BufTy).Contents (Elt Ideal)) : (⟨S100000x128, .f32⟩ : BufTy).Contents (Elt Ideal) :=
  Cert.KernelIdeal.Epilogue.act (Cert.KernelIdeal.Product.prod a0 a4)
    (Cert.KernelIdeal.Between.aggr (F := Ideal) (Cert.KernelIdeal.Product.prod a0 a4) a1 a2 a3)
    (shapeCast S1x128 a6 shapeCasts_S128_S1x128) (shapeCast S1x128 a5 shapeCasts_S128_S1x128)

end Cert.KernelIdeal.Result

end
-- ==== Proof.KernelValue.lean ====
/-
  The idealized kernel's run, read: every weakly fair execution ends with the result buffer at `kerOut` of the
  launched arguments and the arguments unchanged.

  The last boundary's contents at the result buffer are the second region's output array after its write-backs: the
  activation of the four arrays that region found. Those are the first region's output array — the product of the
  launched features and weight — carried unchanged through the host stretch, the host's aggregation of it, and the
  one-row views of the launched skip scale and bias.
-/
import proofs.«150054_j34832184771167_1_alg».proof.Proof.KernelRun
import proofs.«150054_j34832184771167_1_alg».proof.Proof.KernelOut

noncomputable section

namespace Cert.KernelIdeal.Result

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The last boundary's contents at the result buffer are `kerOut` of the launched arguments. -/
theorem result_eq (c : Dev nD) :
    W3 m ρ c (Proc.devRef .tc main_v16)
      = kerOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) :=
  (Cert.KernelIdeal.KRun.W3_result m ρ c).trans ((Cert.KernelIdeal.Epilogue.final (V2 m ρ) c).trans (by
    show Cert.KernelIdeal.Epilogue.act (W2 m ρ c (Proc.devRef .tc main_v0)) (W2 m ρ c (Proc.devRef .tc main_v13))
      (W2 m ρ c (Proc.devRef .tc main_v14)) (W2 m ρ c (Proc.devRef .tc main_v15)) = _
    rw [Cert.KernelIdeal.Between.entry1_v0, Cert.KernelIdeal.Between.entry1_v13, Cert.KernelIdeal.Between.entry1_v14,
      Cert.KernelIdeal.Between.entry1_v15, Cert.KernelIdeal.Product.final (V0 m ρ) c]
    rfl))

/-- The run with the result named. -/
theorem run : θ_run defs (onTc (τ := τ) (main (F := Ideal))) ⟨m, fun _ => 0, ρ⟩ (fun r => ∀ c : Dev nD,
      r.2.mem ((c.tc : Thread nD τ).loc main_v16)
        = kerOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (result_eq m ρ c), (h c).2⟩)
    (Cert.KernelIdeal.KRun.run_value (F := Ideal) m ρ)

end Cert.KernelIdeal.Result

end
-- ==== Proof.RefRun.lean ====
/- The run of the reference program, read back. @main is a straight line of host operations once its one call,
   @selu(%20), is unfolded: @selu calls @elu, which calls @_where and @_where_0, and a call means its callee's body
   over the call's own buffers. The line is forty-three operations: @main's twenty-four, then the nineteen of the
   bodies in the order they execute. Every weakly fair execution terminates with the result buffer at the operations'
   composed pure term of the arguments' launch contents, and the arguments unchanged. -/
import proofs.«150054_j34832184771167_1_alg».proof.ReferenceIdeal
import proofs.«150054_j34832184771167_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The value, as a function of the arguments' contents -/

/-- %0: the product h = x · W, contracting x's columns with W's rows. -/
def refH (a0 : (⟨S100000x128, .f32⟩ : BufTy).Contents (Elt F)) (a4 : (⟨S128x128, .f32⟩ : BufTy).Contents (Elt F)) : (⟨S100000x128, .f32⟩ : BufTy).Contents (Elt F) :=
  Host.dotGeneral dot_S100000x128_S128x128_S100000x128_1_0_0_1_n_n none a0 a4

/-- %13 as a function of h = %0 and the edge lists: row e of h gathered at the source index (a negative index wrapped
    by the row count), scaled by the edge's weight broadcast along the row, and added into row `a1 e` of a zero array. -/
def refAh (h : (⟨S100000x128, .f32⟩ : BufTy).Contents (Elt F)) (a1 a2 : (⟨S1600000, .i32⟩ : BufTy).Contents (Elt F)) (a3 : (⟨S1600000, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 a1)
    (mulf
      (broadcastInDim S1600000x128 ![0, 1] bcast_S1600000x1_S1600000x128_0_1
        (broadcastInDim S1600000x1 ![0] bcast_S1600000_S1600000x1_0 a3))
      (Host.gather gather_S100000x128_S1600000x1_S1600000x128_1_0_n_n_0_1_1128 h
        (broadcastInDim S1600000x1 ![0] bcast_S1600000_S1600000x1_0
          (select (cmpi .slt a2 (broadcastInDim S1600000 ![] bcast_S_S1600000 (constantI S_ 32 0#32)))
            (addi a2 (broadcastInDim S1600000 ![] bcast_S_S1600000 (constantI S_ 32 100000#32)))
            a2))))

/-- %20 = (h * a6 + Ah) + a5, the two vectors broadcast along the rows. -/
def refPre (h Ah : (⟨S100000x128, .f32⟩ : BufTy).Contents (Elt F)) (a5 a6 : (⟨S128, .f32⟩ : BufTy).Contents (Elt F)) : (⟨S100000x128, .f32⟩ : BufTy).Contents (Elt F) :=
  addf
    (addf (mulf h (broadcastInDim S100000x128 ![0, 1] bcast_S1x128_S100000x128_0_1 (broadcastInDim S1x128 ![1] bcast_S128_S1x128_1 a6))) Ah)
    (broadcastInDim S100000x128 ![0, 1] bcast_S1x128_S100000x128_0_1 (broadcastInDim S1x128 ![1] bcast_S128_S1x128_1 a5))

/-- %21 = selu(x) = λ · (x if x > 0 else α · expm1(x if not x > 0 else 0)), every callee's body in place: the inner
    select keeps the exponential's argument at zero where the outer one takes x; the two scalar conversions are the
    identity. -/
def refSelu (x : (⟨S100000x128, .f32⟩ : BufTy).Contents (Elt F)) : (⟨S100000x128, .f32⟩ : BufTy).Contents (Elt F) :=
  mulf (broadcastInDim S100000x128 ![] bcast_S_S100000x128 (constant S_ .f32 0x3F867D5F#32))
    (select (cmpf .ogt x (broadcastInDim S100000x128 ![] bcast_S_S100000x128 (constant S_ .f32 0x00000000#32))) x
      (mulf (broadcastInDim S100000x128 ![] bcast_S_S100000x128 (id (constant S_ .f32 0x3FD62D7D#32)))
        (Host.expm1
          (select (cmpf .ogt x (broadcastInDim S100000x128 ![] bcast_S_S100000x128 (constant S_ .f32 0x00000000#32)))
            (broadcastInDim S100000x128 ![] bcast_S_S100000x128 (id (constant S_ .f32 0x00000000#32))) x))))

/-- The result as a function of the seven arguments' contents. -/
def refOut (a0 : (⟨S100000x128, .f32⟩ : BufTy).Contents (Elt F)) (a1 a2 : (⟨S1600000, .i32⟩ : BufTy).Contents (Elt F)) (a3 : (⟨S1600000, .f32⟩ : BufTy).Contents (Elt F)) (a4 : (⟨S128x128, .f32⟩ : BufTy).Contents (Elt F)) (a5 a6 : (⟨S128, .f32⟩ : BufTy).Contents (Elt F)) : (⟨S100000x128, .f32⟩ : BufTy).Contents (Elt F) :=
  refSelu (refPre (refH a0 a4) (refAh (refH a0 a4) a1 a2 a3) a5 a6)

/-! ## The program as a list of operations -/

/-- @main's operations in order, the calls unfolded: @main's own twenty-four, then @selu's constant α; @elu's seven up
    to its call of @_where (the zero, its broadcast and the test x > 0, twice, and a third zero); @_where's three (the
    zero converted to its own type, broadcast, the select); @elu's exponential, α converted and broadcast, the product;
    @_where_0's select; @selu's constant λ, its broadcast and the final product. -/
abbrev ops : List (HloOp τ sig (Elt F)) :=
  [
    binary main_arg0 main_arg4 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v1 (broadcastInDim S1600000x1 ![0] bcast_S1600000_S1600000x1_0 : (⟨S1600000, .f32⟩ : BufTy).Contents (Elt F) → (⟨S1600000x1, .f32⟩ : BufTy).Contents (Elt F)),
    nullary main_c (constantI S_ 32 0#32),
    unary main_c main_v2 (broadcastInDim S1600000 ![] bcast_S_S1600000 : (⟨S_, .i32⟩ : BufTy).Contents (Elt F) → (⟨S1600000, .i32⟩ : BufTy).Contents (Elt F)),
    binary main_arg2 main_v2 main_v3 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v4 (broadcastInDim S1600000 ![] bcast_S_S1600000 : (⟨S_, .i32⟩ : BufTy).Contents (Elt F) → (⟨S1600000, .i32⟩ : BufTy).Contents (Elt F)),
    binary main_arg2 main_v4 main_v5 (addi : (⟨S1600000, .i32⟩ : BufTy).Contents (Elt F) → (⟨S1600000, .i32⟩ : BufTy).Contents (Elt F) → (⟨S1600000, .i32⟩ : BufTy).Contents (Elt F)),
    ternary main_v3 main_v5 main_arg2 main_v6 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v6 main_v7 (broadcastInDim S1600000x1 ![0] bcast_S1600000_S1600000x1_0 : (⟨S1600000, .i32⟩ : BufTy).Contents (Elt F) → (⟨S1600000x1, .i32⟩ : BufTy).Contents (Elt F)),
    binary main_v0 main_v7 main_v8 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v1 main_v9 (broadcastInDim S1600000x128 ![0, 1] bcast_S1600000x1_S1600000x128_0_1 : (⟨S1600000x1, .f32⟩ : BufTy).Contents (Elt F) → (⟨S1600000x128, .f32⟩ : BufTy).Contents (Elt F)),
    binary main_v9 main_v8 main_v10 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_arg1 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg6 main_v14 (broadcastInDim S1x128 ![1] bcast_S128_S1x128_1 : (⟨S128, .f32⟩ : BufTy).Contents (Elt F) → (⟨S1x128, .f32⟩ : BufTy).Contents (Elt F)),
    unary main_v14 main_v15 (broadcastInDim S100000x128 ![0, 1] bcast_S1x128_S100000x128_0_1 : (⟨S1x128, .f32⟩ : BufTy).Contents (Elt F) → (⟨S100000x128, .f32⟩ : BufTy).Contents (Elt F)),
    binary main_v0 main_v15 main_v16 (mulf : (⟨S100000x128, .f32⟩ : BufTy).Contents (Elt F) → (⟨S100000x128, .f32⟩ : BufTy).Contents (Elt F) → (⟨S100000x128, .f32⟩ : BufTy).Contents (Elt F)),
    binary main_v16 main_v13 main_v17 (addf : (⟨S100000x128, .f32⟩ : BufTy).Contents (Elt F) → (⟨S100000x128, .f32⟩ : BufTy).Contents (Elt F) → (⟨S100000x128, .f32⟩ : BufTy).Contents (Elt F)),
    unary main_arg5 main_v18 (broadcastInDim S1x128 ![1] bcast_S128_S1x128_1 : (⟨S128, .f32⟩ : BufTy).Contents (Elt F) → (⟨S1x128, .f32⟩ : BufTy).Contents (Elt F)),
    unary main_v18 main_v19 (broadcastInDim S100000x128 ![0, 1] bcast_S1x128_S100000x128_0_1 : (⟨S1x128, .f32⟩ : BufTy).Contents (Elt F) → (⟨S100000x128, .f32⟩ : BufTy).Contents (Elt F)),
    binary main_v17 main_v19 main_v20 (addf : (⟨S100000x128, .f32⟩ : BufTy).Contents (Elt F) → (⟨S100000x128, .f32⟩ : BufTy).Contents (Elt F) → (⟨S100000x128, .f32⟩ : BufTy).Contents (Elt F)),
    TRef.nullary main_call0.cst (constant S_ .f32 0x3FD62D7D#32),
    TRef.nullary main_call0.call0.cst (constant S_ .f32 0x00000000#32),
    TRef.unary main_call0.call0.cst main_call0.call0.v0 (broadcastInDim S100000x128 ![] bcast_S_S100000x128),
    TRef.binary (.of main_v20) main_call0.call0.v0 main_call0.call0.v1 (cmpf .ogt),
    TRef.nullary main_call0.call0.cst_0 (constant S_ .f32 0x00000000#32),
    TRef.unary main_call0.call0.cst_0 main_call0.call0.v2 (broadcastInDim S100000x128 ![] bcast_S_S100000x128),
    TRef.binary (.of main_v20) main_call0.call0.v2 main_call0.call0.v3 (cmpf .ogt),
    TRef.nullary main_call0.call0.cst_1 (constant S_ .f32 0x00000000#32),
    TRef.unary main_call0.call0.cst_1 main_call0.call0.call0.v0 id,
    TRef.unary main_call0.call0.call0.v0 main_call0.call0.call0.v1 (broadcastInDim S100000x128 ![] bcast_S_S100000x128),
    TRef.ternary main_call0.call0.v3 main_call0.call0.call0.v1 (.of main_v20) main_call0.call0.call0.v2 select,
    TRef.unary main_call0.call0.call0.v2 main_call0.call0.v5 Host.expm1,
    TRef.unary main_call0.cst main_call0.call0.v6 id,
    TRef.unary main_call0.call0.v6 main_call0.call0.v7 (broadcastInDim S100000x128 ![] bcast_S_S100000x128),
    TRef.binary main_call0.call0.v7 main_call0.call0.v5 main_call0.call0.v8 mulf,
    TRef.ternary main_call0.call0.v1 (.of main_v20) main_call0.call0.v8 main_call0.call0.call1.v0 select,
    TRef.nullary main_call0.cst_0 (constant S_ .f32 0x3F867D5F#32),
    TRef.unary main_call0.cst_0 main_call0.v1 (broadcastInDim S100000x128 ![] bcast_S_S100000x128),
    TRef.binary main_call0.v1 main_call0.call0.call1.v0 main_call0.v2 mulf ]

set_option maxRecDepth 1024 in
/-- @main is that straight line: the functions' definitions unfolded at their calls and the records at their fields,
    both sides are one chain of steps once sequencing is reassociated. -/
theorem main_eq (c : Dev nD) : main (F := F) c = seq ops := by
  simp only [main, fn_selu.body, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub ..⟩

/-! ## The fold, read back -/

attribute [local irreducible] Host.gather Host.scatterAdd in
set_option maxRecDepth 8192 in
set_option maxHeartbeats 400000 in
/-- The fold at the result buffer is `refOut` by computation: the fold unrolled, each operation's result decides whether
    the buffer read is the one it writes, and the typed references' casts are the identity at these literal references.
    The gather and the scatter are kept folded meanwhile: their bodies are folds over the operand's elements, and
    the equation never looks inside them (the product is a field of the float operations, opaque at a generic `F`). -/
theorem out_eq (V : Valuation τ sig (Elt F)) :
    after ops V (main_v21 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  simp only [after_cons, after_nil]
  rfl

attribute [local irreducible] Host.gather Host.scatterAdd in
set_option maxRecDepth 8192 in
/-- No operation writes argument 0's buffer: the fold leaves it as it was. -/
theorem arg0_eq (V : Valuation τ sig (Elt F)) :
    after ops V (main_arg0 : DevRef τ sig) = V (main_arg0 : DevRef τ sig) := by
  simp only [after_cons, after_nil]
  rfl

attribute [local irreducible] Host.gather Host.scatterAdd in
set_option maxRecDepth 8192 in
/-- No operation writes argument 1's buffer: the fold leaves it as it was. -/
theorem arg1_eq (V : Valuation τ sig (Elt F)) :
    after ops V (main_arg1 : DevRef τ sig) = V (main_arg1 : DevRef τ sig) := by
  simp only [after_cons, after_nil]
  rfl

attribute [local irreducible] Host.gather Host.scatterAdd in
set_option maxRecDepth 8192 in
/-- No operation writes argument 2's buffer: the fold leaves it as it was. -/
theorem arg2_eq (V : Valuation τ sig (Elt F)) :
    after ops V (main_arg2 : DevRef τ sig) = V (main_arg2 : DevRef τ sig) := by
  simp only [after_cons, after_nil]
  rfl

attribute [local irreducible] Host.gather Host.scatterAdd in
set_option maxRecDepth 8192 in
/-- No operation writes argument 3's buffer: the fold leaves it as it was. -/
theorem arg3_eq (V : Valuation τ sig (Elt F)) :
    after ops V (main_arg3 : DevRef τ sig) = V (main_arg3 : DevRef τ sig) := by
  simp only [after_cons, after_nil]
  rfl

attribute [local irreducible] Host.gather Host.scatterAdd in
set_option maxRecDepth 8192 in
/-- No operation writes argument 4's buffer: the fold leaves it as it was. -/
theorem arg4_eq (V : Valuation τ sig (Elt F)) :
    after ops V (main_arg4 : DevRef τ sig) = V (main_arg4 : DevRef τ sig) := by
  simp only [after_cons, after_nil]
  rfl

attribute [local irreducible] Host.gather Host.scatterAdd in
set_option maxRecDepth 8192 in
/-- No operation writes argument 5's buffer: the fold leaves it as it was. -/
theorem arg5_eq (V : Valuation τ sig (Elt F)) :
    after ops V (main_arg5 : DevRef τ sig) = V (main_arg5 : DevRef τ sig) := by
  simp only [after_cons, after_nil]
  rfl

attribute [local irreducible] Host.gather Host.scatterAdd in
set_option maxRecDepth 8192 in
/-- No operation writes argument 6's buffer: the fold leaves it as it was. -/
theorem arg6_eq (V : Valuation τ sig (Elt F)) :
    after ops V (main_arg6 : DevRef τ sig) = V (main_arg6 : DevRef τ sig) := by
  simp only [after_cons, after_nil]
  rfl

/-- On every device, for any float values, from any memory with zero counters: every weakly fair execution of @main
    terminates with the result at `refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21)
        = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v21).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c))⟩)
    (run_seq scopedRefs_eq scopedSems_eq defs main (fun _ => ops) main_eq (fun _ => ops_sub) m ρ)

end Cert.ReferenceIdeal.RefRun

end
-- ==== Proof.RefValue.lean ====
/- The reference's terms read at an index, at the ideal values (the extended reals).

   The product h = x · W at (a, b) is the sum over c of x (a, c) * W (c, b): the host's contraction at the ideal values
   is the plain sum with no accumulator, and the printed dimension numbers are those of a plain [M, K] x [K, N] product.
   A vector of 128 broadcast first to one row and then along the 100000 rows reads, at (a, b), its element b. Every other
   operation of the chain reads elementwise, so the result at (a, b) is selu of h (a, b) * a6 b + Ah (a, b) + a5 b — the
   reference spells selu with expm1 of (0 if x > 0 else x), which is selu x at every extended real. -/
import proofs.«150054_j34832184771167_1_alg».proof.Proof.RefRun
import proofs.«150054_j34832184771167_1_alg».proof.Proof.Selu
import proofs.«150054_j34832184771167_1_alg».proof.Proof.LibPlainDot
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.RefRun Idealize.ShloMosaic Idealize.ShloMosaic.ValueIdx

/-- The product at (a, b): the sum over the contracted axis of the left operand's (a, c) times the right operand's
    (c, b). The printed dimension numbers are the plain product's (the same six lists), so the contraction's index
    maps are the plain product's. -/
theorem refH_apply (a0 : (⟨S100000x128, .f32⟩ : BufTy).Contents (Elt Ideal)) (a4 : (⟨S128x128, .f32⟩ : BufTy).Contents (Elt Ideal)) (a : Fin 100000) (b : Fin 128) :
    refH (F := Ideal) a0 a4 (ix2 a b) = ∑ c : Fin 128, a0 (ix2 a c) * a4 (ix2 c b) := by
  unfold refH
  simp only [Host.dotGeneral]
  refine (Ideal.dotGeneral_apply _ _ _ _ _ _).trans ?_
  exact Cert.Lib.PlainDot.sum_eq a0 a4 a b

/-- A vector of 128 broadcast to the one row of a [1, 128] array and that row along 100000 rows reads, at (a, b), the
    vector's element b: on the first step's unit axis the operand index is 0, on every other axis the result's
    coordinate. -/
theorem bcast_row_apply (v : (⟨S128, .f32⟩ : BufTy).Contents (Elt Ideal)) (a : Fin 100000) (b : Fin 128) :
    broadcastInDim S100000x128 ![0, 1] bcast_S1x128_S100000x128_0_1 (broadcastInDim S1x128 ![1] bcast_S128_S1x128_1 v) (ix2 a b)
      = v (ix1 b) := by
  refine (broadcastInDim_apply _ _ _ (ix2 a b) (ix2 (0 : Fin 1) b) (fun ax => ?_)).trans ?_
  · match ax with
    | ⟨0, _⟩ => rfl
    | ⟨1, _⟩ => rfl
  · refine broadcastInDim_apply _ _ _ (ix2 (0 : Fin 1) b) (ix1 b) (fun ax => ?_)
    match ax with
    | ⟨0, _⟩ => rfl

/-- %20 at (a, b): h (a, b) * a6 b + Ah (a, b) + a5 b. -/
theorem refPre_apply (h Ah : (⟨S100000x128, .f32⟩ : BufTy).Contents (Elt Ideal)) (a5 a6 : (⟨S128, .f32⟩ : BufTy).Contents (Elt Ideal)) (a : Fin 100000) (b : Fin 128) :
    refPre (F := Ideal) h Ah a5 a6 (ix2 a b) = h (ix2 a b) * a6 (ix1 b) + Ah (ix2 a b) + a5 (ix1 b) := by
  have e6 := bcast_row_apply a6 a b
  have e5 := bcast_row_apply a5 a b
  show h (ix2 a b)
        * broadcastInDim S100000x128 ![0, 1] bcast_S1x128_S100000x128_0_1 (broadcastInDim S1x128 ![1] bcast_S128_S1x128_1 a6) (ix2 a b)
      + Ah (ix2 a b)
      + broadcastInDim S100000x128 ![0, 1] bcast_S1x128_S100000x128_0_1 (broadcastInDim S1x128 ![1] bcast_S128_S1x128_1 a5) (ix2 a b)
      = _
  rw [e6, e5]

/-- The reference's selu at an index is selu of the element: the broadcast scalars read their word everywhere, the two
    scalar conversions are the identity, and the remaining operations read elementwise; what is left is the spelling with
    expm1 of (0 if x > 0 else x). -/
theorem refSelu_apply (x : (⟨S100000x128, .f32⟩ : BufTy).Contents (Elt Ideal)) (j : S100000x128.Idx) :
    refSelu (F := Ideal) x j = Cert.Selu.selu (x j) :=
  Cert.Selu.expm1_guarded_form (x j) (Ideal.ofBits .f32 0x00000000#32)

/-- The result at (a, b), as a function of h, Ah and the two vectors. -/
theorem refOut_apply (h Ah : (⟨S100000x128, .f32⟩ : BufTy).Contents (Elt Ideal)) (a5 a6 : (⟨S128, .f32⟩ : BufTy).Contents (Elt Ideal)) (a : Fin 100000) (b : Fin 128) :
    refSelu (F := Ideal) (refPre h Ah a5 a6) (ix2 a b)
      = Cert.Selu.selu (h (ix2 a b) * a6 (ix1 b) + Ah (ix2 a b) + a5 (ix1 b)) := by
  rw [refSelu_apply, refPre_apply]

end Cert.ReferenceIdeal.RefValue

end
-- ==== Proof.Bridge.lean ====
/-
  The two results are one function of the arguments.

  Entry by entry both are `selu (H (r, j) * skip j + Ah (r, j) + bias j)`:
  * `H`: the kernel's product array has at `(r, j)` the sum over `c` of `features (r, c) * weight (c, j)`, and the
    reference's contraction of the features' columns with the weight's rows is that same sum;
  * `Ah`: both apply the same gather, scaling and scatter-add to `H` and the edge lists — one function, not opened;
  * the skip scale and the bias: the kernel reads a one-row view at `(0, j)`, the reference a broadcast along the rows,
    both the vector's entry `j`;
  * `selu`: the two spellings of the activation agree at every extended real.
  No step uses that the inputs are finite.
-/
import proofs.«150054_j34832184771167_1_alg».proof.Proof.KernelOut
import proofs.«150054_j34832184771167_1_alg».proof.Proof.RefValue
import Idealize.ShloMosaic.Lib.ValueLayout

noncomputable section

open scoped BigOperators

namespace Cert.Bridge

open Idealize.ShloMosaic Idealize.ShloMosaic.ValueIdx
open Cert.KernelIdeal Cert.KernelIdeal.Gen

/-- The kernel's product array is the reference's contraction. -/
theorem prod_eq (a0 : (⟨S100000x128, .f32⟩ : BufTy).Contents (Elt Ideal)) (a4 : (⟨S128x128, .f32⟩ : BufTy).Contents (Elt Ideal)) :
    Cert.KernelIdeal.Product.prod a0 a4 = Cert.ReferenceIdeal.RefRun.refH (F := Ideal) a0 a4 := by
  funext i
  obtain ⟨a, b, rfl⟩ : ∃ (a : Fin 100000) (b : Fin 128), i = ix2 a b := ⟨i 0, i 1, eq_ix2 i⟩
  rw [Cert.ReferenceIdeal.RefValue.refH_apply]
  rfl

attribute [local irreducible] Host.gather Host.scatterAdd in
/-- The aggregation is the same function on both sides: the same operations with the same dimension numbers. -/
theorem aggr_eq (h : (⟨S100000x128, .f32⟩ : BufTy).Contents (Elt Ideal)) (a1 a2 : (⟨S1600000, .i32⟩ : BufTy).Contents (Elt Ideal)) (a3 : (⟨S1600000, .f32⟩ : BufTy).Contents (Elt Ideal)) :
    Cert.KernelIdeal.Between.aggr (F := Ideal) h a1 a2 a3 = Cert.ReferenceIdeal.RefRun.refAh (F := Ideal) h a1 a2 a3 := rfl

/-- The kernel's result and the reference's are one function of the seven arguments. -/
theorem out_eq (a0 : (⟨S100000x128, .f32⟩ : BufTy).Contents (Elt Ideal)) (a1 a2 : (⟨S1600000, .i32⟩ : BufTy).Contents (Elt Ideal)) (a3 : (⟨S1600000, .f32⟩ : BufTy).Contents (Elt Ideal))
    (a4 : (⟨S128x128, .f32⟩ : BufTy).Contents (Elt Ideal)) (a5 a6 : (⟨S128, .f32⟩ : BufTy).Contents (Elt Ideal)) :
    Cert.KernelIdeal.Result.kerOut a0 a1 a2 a3 a4 a5 a6 = Cert.ReferenceIdeal.RefRun.refOut (F := Ideal) a0 a1 a2 a3 a4 a5 a6 := by
  funext i
  obtain ⟨a, b, rfl⟩ : ∃ (a : Fin 100000) (b : Fin 128), i = ix2 a b := ⟨i 0, i 1, eq_ix2 i⟩
  unfold Cert.ReferenceIdeal.RefRun.refOut
  rw [Cert.ReferenceIdeal.RefValue.refOut_apply, ← prod_eq, ← aggr_eq]
  have h6 : shapeCast S1x128 a6 shapeCasts_S128_S1x128 (ix2 (0 : Fin 1) b) = a6 (ix1 b) :=
    shapeCast_a_1a_apply a6 shapeCasts_S128_S1x128 (0 : Fin 1) b
  have h5 : shapeCast S1x128 a5 shapeCasts_S128_S1x128 (ix2 (0 : Fin 1) b) = a5 (ix1 b) :=
    shapeCast_a_1a_apply a5 shapeCasts_S128_S1x128 (0 : Fin 1) b
  rw [← h6, ← h5]
  rfl

end Cert.Bridge

end
-- ==== Proof.lean ====
/-
  A graph convolution layer: `out = selu (H * skip + A H + bias)`, with `H = features · weight` the dense
  projection (100000 nodes, 128 features), `A H` the sparse aggregation over 1600000 weighted edges
  (`(A H) r = ∑ over the edges e with row e = r of val e * H (col e)`), the skip scale and the bias vectors of 128
  entries broadcast along the nodes.

  The kernel program computes `H` on the matrix unit, 2000 rows of nodes per grid point; leaves the aggregation to
  the host (a gather of rows, a scaling, a scatter-add into zeros); and computes the scaling, the two additions and the
  activation in a second pass over the same 50 row blocks. The reference computes everything on the host. On the
  extended reals the two results are one function of the seven arguments:
  * the 50 row blocks of each pass tile the result, so each pass's output array is one entry-by-entry expression of
    the arrays that pass found (`Proof/Matmul.lean`, `Proof/Epilogue.lean`);
  * an entry of the blockwise product is the sum over the 128 columns of the features' row against the weight's column,
    which is what the reference's contraction is (a change of float format on the way into the matrix unit is the
    identity on extended reals);
  * the aggregation is the same function on both sides and is never opened (`Proof/Between.lean`, `Proof/Bridge.lean`);
  * the kernel's `exp x - 1` under `x > 0 ? x : …` and the reference's `expm1 (x > 0 ? 0 : x)` under the same test
    are one function at every extended real, the infinities included (`Proof/Selu.lean`).
  No step needs the inputs finite; the precondition is not opened. The idealization rewrote nothing, so that claim is
  trivially true. The two kernel programs' frames are the generated ones; the reference's is its run
  (`Proof/RefRun.lean`) with the result dropped.
-/
import proofs.«150054_j34832184771167_1_alg».proof.Defs
import proofs.«150054_j34832184771167_1_alg».proof.Proof.Gen.Kernel
import proofs.«150054_j34832184771167_1_alg».proof.Proof.Gen.Kernel.Frame
import proofs.«150054_j34832184771167_1_alg».proof.Proof.Gen.KernelIdeal
import proofs.«150054_j34832184771167_1_alg».proof.Proof.Gen.KernelIdeal.Frame
import proofs.«150054_j34832184771167_1_alg».proof.Proof.Gen.ReferenceIdeal
import proofs.«150054_j34832184771167_1_alg».proof.Proof.Gen.Pre_finite_inputs
import proofs.«150054_j34832184771167_1_alg».proof.Proof.KernelValue
import proofs.«150054_j34832184771167_1_alg».proof.Proof.RefRun
import proofs.«150054_j34832184771167_1_alg».proof.Proof.Bridge

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the seven arguments both programs end with the result at one function of them. -/
theorem algebraic : Cert.algebraic_KernelIdeal_ReferenceIdeal := by
  intro m ρ m' ρ' _ hagree
  refine ⟨fun c => Cert.KernelIdeal.Result.kerOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.Result.run m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6⟩ := hagree c
  rw [e0, e1, e2, e3, e4, e5, e6]
  exact (Cert.Bridge.out_eq _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
